-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S495616x512 : Shape := ⟨2, ![495616, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S450560 : Shape := ⟨1, ![450560]⟩
abbrev S40960 : Shape := ⟨1, ![40960]⟩
abbrev S_ : Shape := ⟨0, ![]⟩

class Facts : Prop where
  bcast_S_S495616x512 : S_.BroadcastsInDim S495616x512 (![] : Fin 0 → Fin S495616x512.rank)
  reducesTo_S495616x512_S_d0_1 : S495616x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S495616x512 .f32) (main_arg1 : FVec F S512x512 .f32) (main_arg2 : FVec F S512 .f32) (main_arg3 : FVec F S512x256 .f32) (main_arg4 : FVec F S256 .f32) (main_arg5 : IVec S450560 32) (main_arg6 : IVec S450560 32) (main_arg7 : IVec S40960 32) (main_arg8 : IVec S40960 32) : IVec S_ 1 :=
  let main_v0 : FVec F S495616x512 .f32 := Host.absf main_arg0
  let main_cst : FVec F S_ .f32 := constant S_ .f32 0x7F800000#32
  let main_v1 : FVec F S495616x512 .f32 := broadcastInDim S495616x512 ![] bcast_S_S495616x512 main_cst
  let main_v2 : IVec S495616x512 1 := cmpf .olt main_v0 main_v1
  let main_c : IVec S_ 1 := constantI S_ 1 1#1
  let main_v3 : IVec S_ 1 := (fun x v => Host.reduce IntOp.andi x v reducesTo_S495616x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S495616x512 : Shape := ⟨2, ![495616, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S450560 : Shape := ⟨1, ![450560]⟩
abbrev S40960 : Shape := ⟨1, ![40960]⟩
abbrev S_ : Shape := ⟨0, ![]⟩
abbrev S450560x1 : Shape := ⟨2, ![450560, 1]⟩
abbrev S450560x512 : Shape := ⟨2, ![450560, 512]⟩
abbrev S45056x512 : Shape := ⟨2, ![45056, 512]⟩
abbrev S45056 : Shape := ⟨1, ![45056]⟩
abbrev S1x512 : Shape := ⟨2, ![1, 512]⟩
abbrev S45056x1 : Shape := ⟨2, ![45056, 1]⟩
abbrev S2048x512 : Shape := ⟨2, ![2048, 512]⟩
abbrev S2048x1 : Shape := ⟨2, ![2048, 1]⟩
abbrev S40960x1 : Shape := ⟨2, ![40960, 1]⟩
abbrev S40960x512 : Shape := ⟨2, ![40960, 512]⟩
abbrev S4096x512 : Shape := ⟨2, ![4096, 512]⟩
abbrev S4096 : Shape := ⟨1, ![4096]⟩
abbrev S1x256 : Shape := ⟨2, ![1, 256]⟩
abbrev S4096x1 : Shape := ⟨2, ![4096, 1]⟩
abbrev S4096x256 : Shape := ⟨2, ![4096, 256]⟩
abbrev S1024x512 : Shape := ⟨2, ![1024, 512]⟩
abbrev S1024x1 : Shape := ⟨2, ![1024, 1]⟩
abbrev S1024x256 : Shape := ⟨2, ![1024, 256]⟩

abbrev nBuf : Space → Nat
  | .hbm => 57
  | .vmem => 20
  | .smem => 0
  | _ => 0

abbrev bufTy : (tb : Table) → Fin (tcTables nBuf tb) → BufTy
  | .hbm, ⟨0, _⟩ => ⟨S495616x512, .f32⟩
  | .hbm, ⟨1, _⟩ => ⟨S512x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S450560, .i32⟩
  | .hbm, ⟨6, _⟩ => ⟨S450560, .i32⟩
  | .hbm, ⟨7, _⟩ => ⟨S40960, .i32⟩
  | .hbm, ⟨8, _⟩ => ⟨S40960, .i32⟩
  | .hbm, ⟨9, _⟩ => ⟨S_, .i32⟩
  | .hbm, ⟨10, _⟩ => ⟨S450560, .i32⟩
  | .hbm, ⟨11, _⟩ => ⟨S450560, .i1⟩
  | .hbm, ⟨12, _⟩ => ⟨S_, .i32⟩
  | .hbm, ⟨13, _⟩ => ⟨S450560, .i32⟩
  | .hbm, ⟨14, _⟩ => ⟨S450560, .i32⟩
  | .hbm, ⟨15, _⟩ => ⟨S450560, .i32⟩
  | .hbm, ⟨16, _⟩ => ⟨S450560x1, .i32⟩
  | .hbm, ⟨17, _⟩ => ⟨S450560x512, .f32⟩
  | .hbm, ⟨18, _⟩ => ⟨S_, .f32⟩
  | .hbm, ⟨19, _⟩ => ⟨S45056x512, .f32⟩
  | .hbm, ⟨20, _⟩ => ⟨S450560x1, .i32⟩
  | .hbm, ⟨21, _⟩ => ⟨S45056x512, .f32⟩
  | .hbm, ⟨22, _⟩ => ⟨S_, .f32⟩
  | .hbm, ⟨23, _⟩ => ⟨S450560, .f32⟩
  | .hbm, ⟨24, _⟩ => ⟨S_, .f32⟩
  | .hbm, ⟨25, _⟩ => ⟨S45056, .f32⟩
  | .hbm, ⟨26, _⟩ => ⟨S450560x1, .i32⟩
  | .hbm, ⟨27, _⟩ => ⟨S45056, .f32⟩
  | .hbm, ⟨28, _⟩ => ⟨S45056x512, .f32⟩
  | .hbm, ⟨29, _⟩ => ⟨S512x512, .bf16⟩
  | .hbm, ⟨30, _⟩ => ⟨S1x512, .f32⟩
  | .hbm, ⟨31, _⟩ => ⟨S45056x1, .f32⟩
  | .hbm, ⟨32, _⟩ => ⟨S45056x512, .f32⟩
  | .hbm, ⟨33, _⟩ => ⟨S_, .i32⟩
  | .hbm, ⟨34, _⟩ => ⟨S40960, .i32⟩
  | .hbm, ⟨35, _⟩ => ⟨S40960, .i1⟩
  | .hbm, ⟨36, _⟩ => ⟨S_, .i32⟩
  | .hbm, ⟨37, _⟩ => ⟨S40960, .i32⟩
  | .hbm, ⟨38, _⟩ => ⟨S40960, .i32⟩
  | .hbm, ⟨39, _⟩ => ⟨S40960, .i32⟩
  | .hbm, ⟨40, _⟩ => ⟨S40960x1, .i32⟩
  | .hbm, ⟨41, _⟩ => ⟨S40960x512, .f32⟩
  | .hbm, ⟨42, _⟩ => ⟨S_, .f32⟩
  | .hbm, ⟨43, _⟩ => ⟨S4096x512, .f32⟩
  | .hbm, ⟨44, _⟩ => ⟨S40960x1, .i32⟩
  | .hbm, ⟨45, _⟩ => ⟨S4096x512, .f32⟩
  | .hbm, ⟨46, _⟩ => ⟨S_, .f32⟩
  | .hbm, ⟨47, _⟩ => ⟨S40960, .f32⟩
  | .hbm, ⟨48, _⟩ => ⟨S_, .f32⟩
  | .hbm, ⟨49, _⟩ => ⟨S4096, .f32⟩
  | .hbm, ⟨50, _⟩ => ⟨S40960x1, .i32⟩
  | .hbm, ⟨51, _⟩ => ⟨S4096, .f32⟩
  | .hbm, ⟨52, _⟩ => ⟨S4096x512, .f32⟩
  | .hbm, ⟨53, _⟩ => ⟨S512x256, .bf16⟩
  | .hbm, ⟨54, _⟩ => ⟨S1x256, .f32⟩
  | .hbm, ⟨55, _⟩ => ⟨S4096x1, .f32⟩
  | .hbm, ⟨56, _⟩ => ⟨S4096x256, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x1, .f32⟩
  | .local _ .vmem, ⟨5, _⟩ => ⟨S2048x1, .f32⟩
  | .local _ .vmem, ⟨6, _⟩ => ⟨S512x512, .bf16⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x1, .f32⟩
  | .local _ .vmem, ⟨15, _⟩ => ⟨S1024x1, .f32⟩
  | .local _ .vmem, ⟨16, _⟩ => ⟨S512x256, .bf16⟩
  | .local _ .vmem, ⟨17, _⟩ => ⟨S1x256, .f32⟩
  | .local _ .vmem, ⟨18, _⟩ => ⟨S1024x256, .f32⟩
  | .local _ .vmem, ⟨19, _⟩ => ⟨S1024x256, .f32⟩
  | _, _ => ⟨S495616x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S450560 : S_.BroadcastsInDim S450560 (![] : Fin 0 → Fin S450560.rank)
  bcast_S450560_S450560x1_0 : S450560.BroadcastsInDim S450560x1 (![0] : Fin 1 → Fin S450560x1.rank)
  bcast_S_S45056x512 : S_.BroadcastsInDim S45056x512 (![] : Fin 0 → Fin S45056x512.rank)
  bcast_S_S45056 : S_.BroadcastsInDim S45056 (![] : Fin 0 → Fin S45056.rank)
  slices_S495616x512_S45056x512_0_0 : S495616x512.Slices ![0, 0] S45056x512
  bitsLt_bf16_f32 : FTy.bits .bf16 < FTy.bits .f32
  shapeCasts_S512_S1x512 : S512.ShapeCasts S1x512
  shapeCasts_S45056_S45056x1 : S45056.ShapeCasts S45056x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  bcast_S_S40960 : S_.BroadcastsInDim S40960 (![] : Fin 0 → Fin S40960.rank)
  bcast_S40960_S40960x1_0 : S40960.BroadcastsInDim S40960x1 (![0] : Fin 1 → Fin S40960x1.rank)
  bcast_S_S4096x512 : S_.BroadcastsInDim S4096x512 (![] : Fin 0 → Fin S4096x512.rank)
  bcast_S_S4096 : S_.BroadcastsInDim S4096 (![] : Fin 0 → Fin S4096.rank)
  slices_S45056x512_S4096x512_0_0 : S45056x512.Slices ![0, 0] S4096x512
  shapeCasts_S256_S1x256 : S256.ShapeCasts S1x256
  shapeCasts_S4096_S4096x1 : S4096.ShapeCasts S4096x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  gather_S495616x512_S450560x1_S450560x512_1_0_n_n_0_1_1512_wf : GatherDims.WF S495616x512 S450560x1 S450560x512 [1] [0] [] [0] [] 1 ![1, 512]
  scatter_S45056x512_S450560x1_S450560x512_1_0_0_1_wf : ScatterDims.WF S45056x512 S450560x1 S450560x512 [1] [0] [0] 1
  scatter_S45056_S450560x1_S450560_n_0_0_1_wf : ScatterDims.WF S45056 S450560x1 S450560 [] [0] [0] 1
  dot_S2048x512_S512x512_S2048x512_1_0_0_1_n_n_wf : DotDims.WF S2048x512 S512x512 S2048x512 [1] [0] [0] [1] [] []
  gather_S45056x512_S40960x1_S40960x512_1_0_n_n_0_1_1512_wf : GatherDims.WF S45056x512 S40960x1 S40960x512 [1] [0] [] [0] [] 1 ![1, 512]
  scatter_S4096x512_S40960x1_S40960x512_1_0_0_1_wf : ScatterDims.WF S4096x512 S40960x1 S40960x512 [1] [0] [0] 1
  scatter_S4096_S40960x1_S40960_n_0_0_1_wf : ScatterDims.WF S4096 S40960x1 S40960 [] [0] [0] 1
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S45056x512.size a
  hwx0_0 : ∀ i : grid0.Coords, EltTy.bits .f32 = 32 ∨ (Rect.block (s := S45056x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S45056x512.size a
  hwx0_1 : ∀ i : grid0.Coords, EltTy.bits .f32 = 32 ∨ (Rect.block (s := S45056x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S45056x1.size a
  hwx0_2 : ∀ i : grid0.Coords, EltTy.bits .f32 = 32 ∨ (Rect.block (s := S45056x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S45056x512.size a
  hwx0_5 : ∀ i : grid0.Coords, EltTy.bits .f32 = 32 ∨ (Rect.block (s := S45056x512) S2048x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .f32 = 32 ∨ (Rect.block (s := S4096x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x512.size a
  hwx1_1 : ∀ i : grid1.Coords, EltTy.bits .f32 = 32 ∨ (Rect.block (s := S4096x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .bf16 = 32 ∨ (Rect.block (s := S512x256) S512x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S4096x256.size a
  hwx1_5 : ∀ i : grid1.Coords, EltTy.bits .f32 = 32 ∨ (Rect.block (s := S4096x256) S1024x256.size (cc1_transform_5 i) (hinb1_5 i)).WholeWords (EltTy.packing .f32)

variable [Facts₀]

def gather_S495616x512_S450560x1_S450560x512_1_0_n_n_0_1_1512 : GatherDims S495616x512 S450560x1 S450560x512 where
  offsetDims := [1]
  collapsedSliceDims := [0]
  operandBatchingDims := []
  startIndicesBatchingDims := []
  startIndexMap := [0]
  indexVectorDim := 1
  sliceSizes := ![1, 512]
  wf := gather_S495616x512_S450560x1_S450560x512_1_0_n_n_0_1_1512_wf
def scatter_S45056x512_S450560x1_S450560x512_1_0_0_1 : ScatterDims S45056x512 S450560x1 S450560x512 where
  updateWindowDims := [1]
  insertedWindowDims := [0]
  scatterDimsToOperandDims := [0]
  indexVectorDim := 1
  wf := scatter_S45056x512_S450560x1_S450560x512_1_0_0_1_wf
def scatter_S45056_S450560x1_S450560_n_0_0_1 : ScatterDims S45056 S450560x1 S450560 where
  updateWindowDims := []
  insertedWindowDims := [0]
  scatterDimsToOperandDims := [0]
  indexVectorDim := 1
  wf := scatter_S45056_S450560x1_S450560_n_0_0_1_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def gather_S45056x512_S40960x1_S40960x512_1_0_n_n_0_1_1512 : GatherDims S45056x512 S40960x1 S40960x512 where
  offsetDims := [1]
  collapsedSliceDims := [0]
  operandBatchingDims := []
  startIndicesBatchingDims := []
  startIndexMap := [0]
  indexVectorDim := 1
  sliceSizes := ![1, 512]
  wf := gather_S45056x512_S40960x1_S40960x512_1_0_n_n_0_1_1512_wf
def scatter_S4096x512_S40960x1_S40960x512_1_0_0_1 : ScatterDims S4096x512 S40960x1 S40960x512 where
  updateWindowDims := [1]
  insertedWindowDims := [0]
  scatterDimsToOperandDims := [0]
  indexVectorDim := 1
  wf := scatter_S4096x512_S40960x1_S40960x512_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v9) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S495616x512 : Shape := ⟨2, ![495616, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S450560 : Shape := ⟨1, ![450560]⟩
abbrev S40960 : Shape := ⟨1, ![40960]⟩
abbrev S45056x512 : Shape := ⟨2, ![45056, 512]⟩
abbrev S_ : Shape := ⟨0, ![]⟩
abbrev S450560x1 : Shape := ⟨2, ![450560, 1]⟩
abbrev S450560x512 : Shape := ⟨2, ![450560, 512]⟩
abbrev S45056 : Shape := ⟨1, ![45056]⟩
abbrev S45056x1 : Shape := ⟨2, ![45056, 1]⟩
abbrev S1x512 : Shape := ⟨2, ![1, 512]⟩
abbrev S4096x512 : Shape := ⟨2, ![4096, 512]⟩
abbrev S40960x1 : Shape := ⟨2, ![40960, 1]⟩
abbrev S40960x512 : Shape := ⟨2, ![40960, 512]⟩
abbrev S4096 : Shape := ⟨1, ![4096]⟩
abbrev S4096x1 : Shape := ⟨2, ![4096, 1]⟩
abbrev S4096x256 : Shape := ⟨2, ![4096, 256]⟩
abbrev S1x256 : Shape := ⟨2, ![1, 256]⟩

abbrev nBuf : Space → Nat
  | .hbm => 74
  | .vmem => 0
  | .smem => 0
  | _ => 0

abbrev bufTy : (tb : Table) → Fin (tcTables nBuf tb) → BufTy
  | .hbm, ⟨0, _⟩ => ⟨S495616x512, .f32⟩
  | .hbm, ⟨1, _⟩ => ⟨S512x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S450560, .i32⟩
  | .hbm, ⟨6, _⟩ => ⟨S450560, .i32⟩
  | .hbm, ⟨7, _⟩ => ⟨S40960, .i32⟩
  | .hbm, ⟨8, _⟩ => ⟨S40960, .i32⟩
  | .hbm, ⟨9, _⟩ => ⟨S45056x512, .f32⟩
  | .hbm, ⟨10, _⟩ => ⟨S_, .i32⟩
  | .hbm, ⟨11, _⟩ => ⟨S450560, .i32⟩
  | .hbm, ⟨12, _⟩ => ⟨S450560, .i1⟩
  | .hbm, ⟨13, _⟩ => ⟨S_, .i32⟩
  | .hbm, ⟨14, _⟩ => ⟨S450560, .i32⟩
  | .hbm, ⟨15, _⟩ => ⟨S450560, .i32⟩
  | .hbm, ⟨16, _⟩ => ⟨S450560, .i32⟩
  | .hbm, ⟨17, _⟩ => ⟨S450560x1, .i32⟩
  | .hbm, ⟨18, _⟩ => ⟨S450560x512, .f32⟩
  | .hbm, ⟨19, _⟩ => ⟨S_, .f32⟩
  | .hbm, ⟨20, _⟩ => ⟨S45056x512, .f32⟩
  | .hbm, ⟨21, _⟩ => ⟨S450560x1, .i32⟩
  | .hbm, ⟨22, _⟩ => ⟨S45056x512, .f32⟩
  | .hbm, ⟨23, _⟩ => ⟨S_, .f32⟩
  | .hbm, ⟨24, _⟩ => ⟨S450560, .f32⟩
  | .hbm, ⟨25, _⟩ => ⟨S_, .f32⟩
  | .hbm, ⟨26, _⟩ => ⟨S45056, .f32⟩
  | .hbm, ⟨27, _⟩ => ⟨S450560x1, .i32⟩
  | .hbm, ⟨28, _⟩ => ⟨S45056, .f32⟩
  | .hbm, ⟨29, _⟩ => ⟨S45056x512, .f32⟩
  | .hbm, ⟨30, _⟩ => ⟨S45056x1, .f32⟩
  | .hbm, ⟨31, _⟩ => ⟨S_, .f32⟩
  | .hbm, ⟨32, _⟩ => ⟨S45056x1, .f32⟩
  | .hbm, ⟨33, _⟩ => ⟨S45056x1, .f32⟩
  | .hbm, ⟨34, _⟩ => ⟨S45056x512, .f32⟩
  | .hbm, ⟨35, _⟩ => ⟨S45056x512, .f32⟩
  | .hbm, ⟨36, _⟩ => ⟨S45056x512, .f32⟩
  | .hbm, ⟨37, _⟩ => ⟨S1x512, .f32⟩
  | .hbm, ⟨38, _⟩ => ⟨S45056x512, .f32⟩
  | .hbm, ⟨39, _⟩ => ⟨S45056x512, .f32⟩
  | .hbm, ⟨40, _⟩ => ⟨S_, .f32⟩
  | .hbm, ⟨41, _⟩ => ⟨S45056x512, .f32⟩
  | .hbm, ⟨42, _⟩ => ⟨S45056x512, .f32⟩
  | .hbm, ⟨43, _⟩ => ⟨S4096x512, .f32⟩
  | .hbm, ⟨44, _⟩ => ⟨S_, .i32⟩
  | .hbm, ⟨45, _⟩ => ⟨S40960, .i32⟩
  | .hbm, ⟨46, _⟩ => ⟨S40960, .i1⟩
  | .hbm, ⟨47, _⟩ => ⟨S_, .i32⟩
  | .hbm, ⟨48, _⟩ => ⟨S40960, .i32⟩
  | .hbm, ⟨49, _⟩ => ⟨S40960, .i32⟩
  | .hbm, ⟨50, _⟩ => ⟨S40960, .i32⟩
  | .hbm, ⟨51, _⟩ => ⟨S40960x1, .i32⟩
  | .hbm, ⟨52, _⟩ => ⟨S40960x512, .f32⟩
  | .hbm, ⟨53, _⟩ => ⟨S_, .f32⟩
  | .hbm, ⟨54, _⟩ => ⟨S4096x512, .f32⟩
  | .hbm, ⟨55, _⟩ => ⟨S40960x1, .i32⟩
  | .hbm, ⟨56, _⟩ => ⟨S4096x512, .f32⟩
  | .hbm, ⟨57, _⟩ => ⟨S_, .f32⟩
  | .hbm, ⟨58, _⟩ => ⟨S40960, .f32⟩
  | .hbm, ⟨59, _⟩ => ⟨S_, .f32⟩
  | .hbm, ⟨60, _⟩ => ⟨S4096, .f32⟩
  | .hbm, ⟨61, _⟩ => ⟨S40960x1, .i32⟩
  | .hbm, ⟨62, _⟩ => ⟨S4096, .f32⟩
  | .hbm, ⟨63, _⟩ => ⟨S4096x512, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x512, .f32⟩
  | .hbm, ⟨69, _⟩ => ⟨S4096x512, .f32⟩
  | .hbm, ⟨70, _⟩ => ⟨S4096x256, .f32⟩
  | .hbm, ⟨71, _⟩ => ⟨S1x256, .f32⟩
  | .hbm, ⟨72, _⟩ => ⟨S4096x256, .f32⟩
  | .hbm, ⟨73, _⟩ => ⟨S4096x256, .f32⟩
  | _, _ => ⟨S495616x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  slices_S495616x512_S45056x512_0_0 : S495616x512.Slices ![0, 0] S45056x512
  bcast_S_S450560 : S_.BroadcastsInDim S450560 (![] : Fin 0 → Fin S450560.rank)
  bcast_S450560_S450560x1_0 : S450560.BroadcastsInDim S450560x1 (![0] : Fin 1 → Fin S450560x1.rank)
  bcast_S_S45056x512 : S_.BroadcastsInDim S45056x512 (![] : Fin 0 → Fin S45056x512.rank)
  bcast_S_S45056 : S_.BroadcastsInDim S45056 (![] : Fin 0 → Fin S45056.rank)
  bcast_S45056_S45056x1_0 : S45056.BroadcastsInDim S45056x1 (![0] : Fin 1 → Fin S45056x1.rank)
  bcast_S_S45056x1 : S_.BroadcastsInDim S45056x1 (![] : Fin 0 → Fin S45056x1.rank)
  bcast_S45056x1_S45056x512_0_1 : S45056x1.BroadcastsInDim S45056x512 (![0, 1] : Fin 2 → Fin S45056x512.rank)
  bcast_S512_S1x512_1 : S512.BroadcastsInDim S1x512 (![1] : Fin 1 → Fin S1x512.rank)
  bcast_S1x512_S45056x512_0_1 : S1x512.BroadcastsInDim S45056x512 (![0, 1] : Fin 2 → Fin S45056x512.rank)
  slices_S45056x512_S4096x512_0_0 : S45056x512.Slices ![0, 0] S4096x512
  bcast_S_S40960 : S_.BroadcastsInDim S40960 (![] : Fin 0 → Fin S40960.rank)
  bcast_S40960_S40960x1_0 : S40960.BroadcastsInDim S40960x1 (![0] : Fin 1 → Fin S40960x1.rank)
  bcast_S_S4096x512 : S_.BroadcastsInDim S4096x512 (![] : Fin 0 → Fin S4096x512.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  gather_S495616x512_S450560x1_S450560x512_1_0_n_n_0_1_1512_wf : GatherDims.WF S495616x512 S450560x1 S450560x512 [1] [0] [] [0] [] 1 ![1, 512]
  scatter_S45056x512_S450560x1_S450560x512_1_0_0_1_wf : ScatterDims.WF S45056x512 S450560x1 S450560x512 [1] [0] [0] 1
  scatter_S45056_S450560x1_S450560_n_0_0_1_wf : ScatterDims.WF S45056 S450560x1 S450560 [] [0] [0] 1
  dot_S45056x512_S512x512_S45056x512_1_0_0_1_n_n_wf : DotDims.WF S45056x512 S512x512 S45056x512 [1] [0] [0] [1] [] []
  gather_S45056x512_S40960x1_S40960x512_1_0_n_n_0_1_1512_wf : GatherDims.WF S45056x512 S40960x1 S40960x512 [1] [0] [] [0] [] 1 ![1, 512]
  scatter_S4096x512_S40960x1_S40960x512_1_0_0_1_wf : ScatterDims.WF S4096x512 S40960x1 S40960x512 [1] [0] [0] 1
  scatter_S4096_S40960x1_S40960_n_0_0_1_wf : ScatterDims.WF S4096 S40960x1 S40960 [] [0] [0] 1
  dot_S4096x512_S512x256_S4096x256_1_0_0_1_n_n_wf : DotDims.WF S4096x512 S512x256 S4096x256 [1] [0] [0] [1] [] []

variable [Facts₀]

def gather_S495616x512_S450560x1_S450560x512_1_0_n_n_0_1_1512 : GatherDims S495616x512 S450560x1 S450560x512 where
  offsetDims := [1]
  collapsedSliceDims := [0]
  operandBatchingDims := []
  startIndicesBatchingDims := []
  startIndexMap := [0]
  indexVectorDim := 1
  sliceSizes := ![1, 512]
  wf := gather_S495616x512_S450560x1_S450560x512_1_0_n_n_0_1_1512_wf
def scatter_S45056x512_S450560x1_S450560x512_1_0_0_1 : ScatterDims S45056x512 S450560x1 S450560x512 where
  updateWindowDims := [1]
  insertedWindowDims := [0]
  scatterDimsToOperandDims := [0]
  indexVectorDim := 1
  wf := scatter_S45056x512_S450560x1_S450560x512_1_0_0_1_wf
def scatter_S45056_S450560x1_S450560_n_0_0_1 : ScatterDims S45056 S450560x1 S450560 where
  updateWindowDims := []
  insertedWindowDims := [0]
  scatterDimsToOperandDims := [0]
  indexVectorDim := 1
  wf := scatter_S45056_S450560x1_S450560_n_0_0_1_wf
def dot_S45056x512_S512x512_S45056x512_1_0_0_1_n_n : DotDims S45056x512 S512x512 S45056x512 where
  lhsContracting := [1]
  rhsContracting := [0]
  lhsNonContracting := [0]
  rhsNonContracting := [1]
  lhsBatch := []
  rhsBatch := []
  wf := dot_S45056x512_S512x512_S45056x512_1_0_0_1_n_n_wf
def gather_S45056x512_S40960x1_S40960x512_1_0_n_n_0_1_1512 : GatherDims S45056x512 S40960x1 S40960x512 where
  offsetDims := [1]
  collapsedSliceDims := [0]
  operandBatchingDims := []
  startIndicesBatchingDims := []
  startIndexMap := [0]
  indexVectorDim := 1
  sliceSizes := ![1, 512]
  wf := gather_S45056x512_S40960x1_S40960x512_1_0_n_n_0_1_1512_wf
def scatter_S4096x512_S40960x1_S40960x512_1_0_0_1 : ScatterDims S4096x512 S40960x1 S40960x512 where
  updateWindowDims := [1]
  insertedWindowDims := [0]
  scatterDimsToOperandDims := [0]
  indexVectorDim := 1
  wf := scatter_S4096x512_S40960x1_S40960x512_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

class Facts : Prop extends Facts₀ where

variable [Facts]
-- ==== Proof.KernelRun.lean ====
/-
  The idealized kernel program's run with its result named.

  The program is two launches of the layer kernel among host operations.  Its run is followed segment by segment
  (host operations, first launch, host operations, second launch); after the last segment every buffer the program
  does not scope holds the last boundary's contents, a fold through the program from the launch memory.  Read at the
  arguments that fold walks back to the launch memory, and read at the result buffer it is what the second launch's
  write-backs leave.  This module states the run with both readings, so that the result can then be computed from the
  fold.
-/
import proofs.«150003_j43078521979009_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer holding the last boundary's contents
    there and every argument its launch contents. -/
theorem run : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Named

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.LibHostKeepdims.lean ====
/-
  Reading the host's "keep the reduced axis as a unit axis" operations at an index.

  A host sum over the last axis of an `[a, b]` array kept as an `[a, 1]` column is met as: the sum to `[a]` from a
  zero scalar, a `broadcast_in_dim` of `[a]` to the column `[a, 1]`, and later a `broadcast_in_dim` of the column
  over `b` lanes; a scalar constant reaches a shape by `broadcast_in_dim` with no dimensions.  Each lemma reads one of
  them at an index built from coordinates.
-/
import Idealize.ShloMosaic.Lib.Pipeline.Value
import Idealize.ShloMosaic.Lib.ValueIdx
import Idealize.ShloMosaic.PureOps.Ideal.Laws

noncomputable section

namespace Idealize.ShloMosaic.HostKeepdims

open Idealize.ShloMosaic Idealize.ShloMosaic.ValueIdx

variable {α : Type}

/-- The host's sum over the last axis of an `[a, b]` array, started from the zero scalar, at row `r`, is the sum of
    the row's entries (the reduction's two shape facts are the caller's, decided at its literal shapes). -/
theorem hostRowSum_apply {a b : ℕ} (v : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd v (constant (F := Ideal) ⟨0, ![]⟩ .f32 0x00000000#32) h' hu (ix1 r) = ∑ k : Fin b, v (ix2 r k) := by
  show Ideal.hostReduceAdd h' v (Ideal.ofBits .f32 0x00000000#32) (ix1 r) = _
  rw [Ideal.hostReduceAdd_single h' h, Ideal.ofBits_zero_f32, zero_add]
  exact Finset.sum_congr rfl fun k _ => congrArg v (funext fun ax => Fin.ext (by
    match ax with
    | ⟨0, _⟩ => rfl
    | ⟨1, _⟩ => rfl))

/-- An `[a]` array laid as the column `[a, 1]` by `broadcast_in_dim` along axis 0 reads, at `(r, u)`, the operand at `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ (![0] : Fin 1 → Fin 2) h x (ix2 r u) = x (ix1 r) :=
  broadcastInDim_apply _ h x (ix2 r u) (ix1 r) fun ax => by
    match ax with
    | ⟨0, _⟩ =>
      show r.val = if a = 1 then 0 else r.val
      split
      · have := r.isLt; omega
      · rfl

/-- A scalar sent to any shape by `broadcast_in_dim` with no dimensions reads, everywhere, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 fun ax => ax.elim0

/-- A column `[a, 1]` sent over `b` lanes by `broadcast_in_dim` along axes 0 and 1 reads, at `(r, c)`, the column at row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (c : Fin b) :
    broadcastInDim ⟨2, ![a, b]⟩ (![0, 1] : Fin 2 → Fin 2) h x (ix2 r c) = x (ix2 r (0 : Fin 1)) :=
  broadcastInDim_apply _ h x (ix2 r c) (ix2 r (0 : Fin 1)) fun ax => by
    match ax with
    | ⟨0, _⟩ =>
      show r.val = if a = 1 then 0 else r.val
      split
      · have := r.isLt; omega
      · rfl
    | ⟨1, _⟩ =>
      show (0 : ℕ) = if (1 : ℕ) = 1 then 0 else c.val
      rw [if_pos rfl]

end Idealize.ShloMosaic.HostKeepdims

end
-- ==== Proof.LibGcnLayer.lean ====
/-
  One graph layer with the "mean over the neighbourhood and the node itself" aggregator, entry by entry.

  For each destination row `r` the layer takes the sum `msg r` of its in-neighbours' feature rows, the node's own
  feature row `self r` and its in-degree `deg r`, forms the mean `(msg r + self r) / (deg r + 1)`, and applies an
  affine map: entry `(r, q)` of the result is `Σ_j mean(r, j) · W(j, q) + bias(q)`; a rectified layer then takes the
  maximum with zero.  The kernel computes this on a block of rows at a time — the degree as an `[a, 1]` column
  broadcast along the lanes, the bias as a `[1, b]` row broadcast down the rows, the product on the matrix unit into
  a zero accumulator, its operands narrowed first (the identity on extended reals).  The host computes it on all rows
  at once, with `broadcast_in_dim` for the two layouts and `dot_general` for the product.  Both are the same sums of
  the same products in the same order of operations, so no law of the extended reals beyond "a matrix product's
  entry is the sum over the contracted axis" is used, and nothing is assumed finite.
-/
import Idealize.ShloMosaic.Lib.ValueIdx
import Idealize.ShloMosaic.Lib.IdealHost
import Idealize.ShloMosaic.Lib.Pipeline.Value
import Idealize.ShloMosaic.PureOps.Ideal.Laws
import proofs.«150003_j43078521979009_1_alg».proof.Proof.LibPlainDot
import proofs.«150003_j43078521979009_1_alg».proof.Proof.LibKeepdims
import proofs.«150003_j43078521979009_1_alg».proof.Proof.LibRowBroadcast
import proofs.«150003_j43078521979009_1_alg».proof.Proof.LibHostKeepdims

noncomputable section

namespace Idealize.ShloMosaic.GcnLayer

open Idealize.ShloMosaic Idealize.ShloMosaic.ValueIdx

variable {n k b : ℕ}

/-- The aggregated feature `(msg(r, j) + self(r, j)) / (deg(r) + 1)`. -/
def mean (msg self : FVec Ideal ⟨2, ![n, k]⟩ .f32) (deg : Fin n → Ideal .f32) (r : Fin n) (j : Fin k) : Ideal .f32 :=
  Ideal.div (msg (ix2 r j) + self (ix2 r j)) (deg r + Ideal.ofBits .f32 0x3F800000#32)

/-- The layer before rectification: entry `(r, q)` is `Σ_j mean(r, j) · W(j, q) + bias(q)`. -/
def linear (msg self : FVec Ideal ⟨2, ![n, k]⟩ .f32) (deg : Fin n → Ideal .f32)
    (w : FVec Ideal ⟨2, ![k, b]⟩ .f32) (bias : Fin b → Ideal .f32) : FVec Ideal ⟨2, ![n, b]⟩ .f32 := fun i =>
  (∑ j : Fin k, mean msg self deg (i 0) j * w (ix2 j (i 1))) + bias (i 1)

/-- The rectified layer: the maximum of `linear` with zero. -/
def linearRelu (msg self : FVec Ideal ⟨2, ![n, k]⟩ .f32) (deg : Fin n → Ideal .f32)
    (w : FVec Ideal ⟨2, ![k, b]⟩ .f32) (bias : Fin b → Ideal .f32) : FVec Ideal ⟨2, ![n, b]⟩ .f32 := fun i =>
  max (linear msg self deg w bias i) (Ideal.ofBits .f32 0x00000000#32)

/-- `linear` depends on its degree, weight and bias arguments only through their values. -/
theorem linear_congr {msg msg' self self' : FVec Ideal ⟨2, ![n, k]⟩ .f32} {deg deg' : Fin n → Ideal .f32}
    {w w' : FVec Ideal ⟨2, ![k, b]⟩ .f32} {bias bias' : Fin b → Ideal .f32}
    (h1 : msg = msg') (h2 : self = self') (h3 : ∀ r, deg r = deg' r) (h4 : ∀ i, w i = w' i)
    (h5 : ∀ q, bias q = bias' q) : linear msg self deg w bias = linear msg' self' deg' w' bias' := by
  obtain rfl := h1
  obtain rfl := h2
  obtain rfl : deg = deg' := funext h3
  obtain rfl : w = w' := funext h4
  obtain rfl : bias = bias' := funext h5
  rfl

/-- The same for the rectified layer. -/
theorem linearRelu_congr {msg msg' self self' : FVec Ideal ⟨2, ![n, k]⟩ .f32} {deg deg' : Fin n → Ideal .f32}
    {w w' : FVec Ideal ⟨2, ![k, b]⟩ .f32} {bias bias' : Fin b → Ideal .f32}
    (h1 : msg = msg') (h2 : self = self') (h3 : ∀ r, deg r = deg' r) (h4 : ∀ i, w i = w' i)
    (h5 : ∀ q, bias q = bias' q) : linearRelu msg self deg w bias = linearRelu msg' self' deg' w' bias' := by
  obtain rfl := h1
  obtain rfl := h2
  obtain rfl : deg = deg' := funext h3
  obtain rfl : w = w' := funext h4
  obtain rfl : bias = bias' := funext h5
  rfl

section
variable (D : DotDims ⟨2, ![n, k]⟩ ⟨2, ![k, b]⟩ ⟨2, ![n, b]⟩)
  (hr : D.contr.rank = 1) (hs : D.contr.size ⟨0, by omega⟩ = k)
  (hl0 : ∀ i q, (D.lhsIdx i q 0).val = (i 0).val)
  (hl1 : ∀ i q, (D.lhsIdx i q 1).val = (q ⟨0, by omega⟩).val)
  (hr0 : ∀ i q, (D.rhsIdx i q 0).val = (q ⟨0, by omega⟩).val)
  (hr1 : ∀ i q, (D.rhsIdx i q 1).val = (i 1).val)
include hr hs hl0 hl1 hr0 hr1

/-- The kernel's arithmetic on one block of `n` rows, at entry `(p, q)` of the block: the casts to the same shape are
    the identity, the degree column plus one is broadcast along the lanes, the quotient is narrowed (the identity),
    the matrix unit into the zero accumulator is the contraction sum, and the bias row is broadcast down the rows. -/
theorem kernel_linear_apply (x0 x1 : FVec Ideal ⟨2, ![n, k]⟩ .f32) (x2 : FVec Ideal ⟨2, ![n, 1]⟩ .f32)
    (x3 : FVec Ideal ⟨2, ![k, b]⟩ .bf16) (x4 : FVec Ideal ⟨2, ![1, b]⟩ .f32)
    (hc0 : (⟨2, ![n, k]⟩ : Shape).ShapeCasts ⟨2, ![n, k]⟩) (hc2 : (⟨2, ![n, 1]⟩ : Shape).ShapeCasts ⟨2, ![n, 1]⟩)
    (hc3 : (⟨2, ![k, b]⟩ : Shape).ShapeCasts ⟨2, ![k, b]⟩) (hc4 : (⟨2, ![1, b]⟩ : Shape).ShapeCasts ⟨2, ![1, b]⟩)
    (hbf : FTy.bf16.bits < FTy.f32.bits)
    (hB1 : (⟨2, ![n, 1]⟩ : Shape).Broadcasts ⟨2, ![n, k]⟩) (hB2 : (⟨2, ![1, b]⟩ : Shape).Broadcasts ⟨2, ![n, b]⟩)
    (p : Fin n) (q : Fin b) :
    addf (matmul D none
          (truncf .bf16 (divf (addf (shapeCast ⟨2, ![n, k]⟩ x0 hc0) (shapeCast ⟨2, ![n, k]⟩ x1 hc0))
              (broadcastTo ⟨2, ![n, k]⟩ (addf (shapeCast ⟨2, ![n, 1]⟩ x2 hc2)
                  (broadcast ⟨2, ![n, 1]⟩ (Scalar.ofBits (F := Ideal) .f32 0x3F800000#32))) hB1)) hbf)
          (shapeCast ⟨2, ![k, b]⟩ x3 hc3) (constant (F := Ideal) ⟨2, ![n, b]⟩ .f32 0x00000000#32))
        (broadcastTo ⟨2, ![n, b]⟩ (shapeCast ⟨2, ![1, b]⟩ x4 hc4) hB2) (ix2 p q)
      = (∑ j : Fin k, Ideal.div (x0 (ix2 p j) + x1 (ix2 p j))
            (x2 (ix2 p (0 : Fin 1)) + Ideal.ofBits .f32 0x3F800000#32) * x3 (ix2 j q))
          + x4 (ix2 (0 : Fin 1) q) := by
  rw [shapeCast_self, shapeCast_self, shapeCast_self, shapeCast_self, shapeCast_self]
  rw [addf_apply, RowBroadcast.broadcastTo_row_apply, PlainDot.matmul_zero_apply D none hr hs hl0 hl1 hr0 hr1]
  refine congrArg (· + _) (Finset.sum_congr rfl fun j _ => ?_)
  rw [truncf_apply, divf_apply, addf_apply, Keepdims.broadcastTo_a1_ab_apply, addf_apply, broadcast_apply]
  rfl

/-- The same block arithmetic followed by the maximum with a broadcast zero. -/
theorem kernel_linear_relu_apply (x0 x1 : FVec Ideal ⟨2, ![n, k]⟩ .f32) (x2 : FVec Ideal ⟨2, ![n, 1]⟩ .f32)
    (x3 : FVec Ideal ⟨2, ![k, b]⟩ .bf16) (x4 : FVec Ideal ⟨2, ![1, b]⟩ .f32)
    (hc0 : (⟨2, ![n, k]⟩ : Shape).ShapeCasts ⟨2, ![n, k]⟩) (hc2 : (⟨2, ![n, 1]⟩ : Shape).ShapeCasts ⟨2, ![n, 1]⟩)
    (hc3 : (⟨2, ![k, b]⟩ : Shape).ShapeCasts ⟨2, ![k, b]⟩) (hc4 : (⟨2, ![1, b]⟩ : Shape).ShapeCasts ⟨2, ![1, b]⟩)
    (hbf : FTy.bf16.bits < FTy.f32.bits)
    (hB1 : (⟨2, ![n, 1]⟩ : Shape).Broadcasts ⟨2, ![n, k]⟩) (hB2 : (⟨2, ![1, b]⟩ : Shape).Broadcasts ⟨2, ![n, b]⟩)
    (p : Fin n) (q : Fin b) :
    maximumf (addf (matmul D none
          (truncf .bf16 (divf (addf (shapeCast ⟨2, ![n, k]⟩ x0 hc0) (shapeCast ⟨2, ![n, k]⟩ x1 hc0))
              (broadcastTo ⟨2, ![n, k]⟩ (addf (shapeCast ⟨2, ![n, 1]⟩ x2 hc2)
                  (broadcast ⟨2, ![n, 1]⟩ (Scalar.ofBits (F := Ideal) .f32 0x3F800000#32))) hB1)) hbf)
          (shapeCast ⟨2, ![k, b]⟩ x3 hc3) (constant (F := Ideal) ⟨2, ![n, b]⟩ .f32 0x00000000#32))
        (broadcastTo ⟨2, ![n, b]⟩ (shapeCast ⟨2, ![1, b]⟩ x4 hc4) hB2))
      (broadcast ⟨2, ![n, b]⟩ (Scalar.ofBits (F := Ideal) .f32 0x00000000#32)) (ix2 p q)
      = max ((∑ j : Fin k, Ideal.div (x0 (ix2 p j) + x1 (ix2 p j))
            (x2 (ix2 p (0 : Fin 1)) + Ideal.ofBits .f32 0x3F800000#32) * x3 (ix2 j q))
          + x4 (ix2 (0 : Fin 1) q)) (Ideal.ofBits .f32 0x00000000#32) := by
  rw [maximumf_apply, broadcast_apply,
    kernel_linear_apply D hr hs hl0 hl1 hr0 hr1 x0 x1 x2 x3 x4 hc0 hc2 hc3 hc4 hbf hB1 hB2 p q]
  rfl

/-- The host's spelling of the layer before rectification is `linear`: the degree laid as a column and sent along the
    lanes, the bias laid as a row and sent down the rows, the host's quotient and contraction. -/
theorem host_linear_eq (msg self : FVec Ideal ⟨2, ![n, k]⟩ .f32) (deg : FVec Ideal ⟨1, ![n]⟩ .f32)
    (w : FVec Ideal ⟨2, ![k, b]⟩ .f32) (bias : FVec Ideal ⟨1, ![b]⟩ .f32)
    (hd1 : (⟨1, ![n]⟩ : Shape).BroadcastsInDim ⟨2, ![n, 1]⟩ (![0] : Fin 1 → Fin 2))
    (hs1 : (⟨0, ![]⟩ : Shape).BroadcastsInDim ⟨2, ![n, 1]⟩ (![] : Fin 0 → Fin 2))
    (hd2 : (⟨2, ![n, 1]⟩ : Shape).BroadcastsInDim ⟨2, ![n, k]⟩ (![0, 1] : Fin 2 → Fin 2))
    (hb1 : (⟨1, ![b]⟩ : Shape).BroadcastsInDim ⟨2, ![1, b]⟩ (![1] : Fin 1 → Fin 2))
    (hb2 : (⟨2, ![1, b]⟩ : Shape).BroadcastsInDim ⟨2, ![n, b]⟩ (![0, 1] : Fin 2 → Fin 2)) :
    addf (Host.dotGeneral D none
        (Host.divf (addf msg self)
          (broadcastInDim ⟨2, ![n, k]⟩ ![0, 1] hd2
            (addf (broadcastInDim ⟨2, ![n, 1]⟩ ![0] hd1 deg)
              (broadcastInDim ⟨2, ![n, 1]⟩ ![] hs1 (constant (F := Ideal) ⟨0, ![]⟩ .f32 0x3F800000#32))))) w)
      (broadcastInDim ⟨2, ![n, b]⟩ ![0, 1] hb2 (broadcastInDim ⟨2, ![1, b]⟩ ![1] hb1 bias))
    = linear msg self (fun r => deg (ix1 r)) w (fun q => bias (ix1 q)) := by
  funext i
  obtain ⟨p, q, rfl⟩ : ∃ (p : Fin n) (q : Fin b), i = ix2 p q := ⟨i 0, i 1, eq_ix2 i⟩
  rw [addf_apply, PlainDot.dotGeneral_apply D none hr hs hl0 hl1 hr0 hr1,
    RowBroadcast.broadcastInDim_row_apply _ rfl rfl, RowBroadcast.broadcastInDim_flat_apply _ rfl]
  refine congrArg (· + _) (Finset.sum_congr rfl fun j _ => ?_)
  rw [hostDivf_apply, addf_apply, HostKeepdims.bcast_a1_ab_apply, addf_apply, HostKeepdims.bcast_a_a1_apply,
    HostKeepdims.bcast_scalar_apply, constant_apply]
  rfl

/-- The host's rectified layer — the maximum with a zero scalar sent to the whole shape — is `linearRelu`. -/
theorem host_linear_relu_eq (msg self : FVec Ideal ⟨2, ![n, k]⟩ .f32) (deg : FVec Ideal ⟨1, ![n]⟩ .f32)
    (w : FVec Ideal ⟨2, ![k, b]⟩ .f32) (bias : FVec Ideal ⟨1, ![b]⟩ .f32)
    (hd1 : (⟨1, ![n]⟩ : Shape).BroadcastsInDim ⟨2, ![n, 1]⟩ (![0] : Fin 1 → Fin 2))
    (hs1 : (⟨0, ![]⟩ : Shape).BroadcastsInDim ⟨2, ![n, 1]⟩ (![] : Fin 0 → Fin 2))
    (hd2 : (⟨2, ![n, 1]⟩ : Shape).BroadcastsInDim ⟨2, ![n, k]⟩ (![0, 1] : Fin 2 → Fin 2))
    (hb1 : (⟨1, ![b]⟩ : Shape).BroadcastsInDim ⟨2, ![1, b]⟩ (![1] : Fin 1 → Fin 2))
    (hb2 : (⟨2, ![1, b]⟩ : Shape).BroadcastsInDim ⟨2, ![n, b]⟩ (![0, 1] : Fin 2 → Fin 2))
    (hz : (⟨0, ![]⟩ : Shape).BroadcastsInDim ⟨2, ![n, b]⟩ (![] : Fin 0 → Fin 2)) :
    maximumf (addf (Host.dotGeneral D none
        (Host.divf (addf msg self)
          (broadcastInDim ⟨2, ![n, k]⟩ ![0, 1] hd2
            (addf (broadcastInDim ⟨2, ![n, 1]⟩ ![0] hd1 deg)
              (broadcastInDim ⟨2, ![n, 1]⟩ ![] hs1 (constant (F := Ideal) ⟨0, ![]⟩ .f32 0x3F800000#32))))) w)
      (broadcastInDim ⟨2, ![n, b]⟩ ![0, 1] hb2 (broadcastInDim ⟨2, ![1, b]⟩ ![1] hb1 bias)))
      (broadcastInDim ⟨2, ![n, b]⟩ ![] hz (constant (F := Ideal) ⟨0, ![]⟩ .f32 0x00000000#32))
    = linearRelu msg self (fun r => deg (ix1 r)) w (fun q => bias (ix1 q)) := by
  funext i
  rw [maximumf_apply, host_linear_eq D hr hs hl0 hl1 hr0 hr1 msg self deg w bias hd1 hs1 hd2 hb1 hb2,
    HostKeepdims.bcast_scalar_apply, constant_apply]
  rfl

end

end Idealize.ShloMosaic.GcnLayer

end
-- ==== Proof.Launch0.lean ====
/-
  Launch 0 of the layer kernel (the rectified first layer), read as one function of the arrays it is launched on.

  The grid has 22 points; point `t` stages rows `2048·t … 2048·t + 2047` of the neighbour sums, of the nodes' own rows and of the
  degree column, together with the whole weight matrix and bias row, and writes back the same rows of the result.  The
  body's value at entry `(p, q)` of its block depends only on row `p` of the three row blocks, so block `t` of the result is
  block `t` of the layer function of the whole arrays; the 22 blocks tile the 45056 rows, so the result array ends holding
  that function everywhere.
-/
import proofs.«150003_j43078521979009_1_alg».proof.Proof.Gen.KernelIdeal.Frame
import proofs.«150003_j43078521979009_1_alg».proof.Proof.LibGcnLayer
import Idealize.ShloMosaic.Lib.Pipeline.Value
import Idealize.ShloMosaic.Lib.ValueIdx

set_option maxRecDepth 16384

noncomputable section

namespace Cert.KernelIdeal.Launch0

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The matrix unit's dimension record contracts the left operand's lanes with the right operand's rows -/

theorem dot_l0 (i : S2048x512.Idx) (q : dot_S2048x512_S512x512_S2048x512_1_0_0_1_n_n.contr.Idx) : (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem dot_l1 (i : S2048x512.Idx) (q : dot_S2048x512_S512x512_S2048x512_1_0_0_1_n_n.contr.Idx) : (dot_S2048x512_S512x512_S2048x512_1_0_0_1_n_n.lhsIdx i q 1).val = (q ⟨0, by decide⟩).val :=
  dot_S2048x512_S512x512_S2048x512_1_0_0_1_n_n.lhsIdx_val_of_single rfl i q
theorem dot_r0 (i : S2048x512.Idx) (q : dot_S2048x512_S512x512_S2048x512_1_0_0_1_n_n.contr.Idx) : (dot_S2048x512_S512x512_S2048x512_1_0_0_1_n_n.rhsIdx i q 0).val = (q ⟨0, by decide⟩).val :=
  dot_S2048x512_S512x512_S2048x512_1_0_0_1_n_n.rhsIdx_val_of_single rfl i q
theorem dot_r1 (i : S2048x512.Idx) (q : dot_S2048x512_S512x512_S2048x512_1_0_0_1_n_n.contr.Idx) : (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-! ## The body's stored value at an entry of its block -/

/-- Entry `(p, q)` of what the body stores, from the blocks it loaded: row `p` of the two feature blocks and of the
    degree column, column `q` of the weights, entry `q` of the bias row. -/
theorem stored_apply (x0 x1 : FVec Ideal S2048x512 .f32) (x2 : FVec Ideal S2048x1 .f32) (x3 : FVec Ideal S512x512 .bf16)
    (x4 : FVec Ideal S1x512 .f32) (p : Fin 2048) (q : Fin 512) :
    k0_pay1 (F := Ideal) x0 x1 x2 x3 x4 (ix2 p q)
      = max ((∑ j : Fin 512, Ideal.div (x0 (ix2 p j) + x1 (ix2 p j))
            (x2 (ix2 p (0 : Fin 1)) + Ideal.ofBits .f32 0x3F800000#32) * x3 (ix2 j q))
          + x4 (ix2 (0 : Fin 1) q)) (Ideal.ofBits .f32 0x00000000#32) := by
  unfold k0_pay1
  exact GcnLayer.kernel_linear_relu_apply dot_S2048x512_S512x512_S2048x512_1_0_0_1_n_n rfl rfl dot_l0 dot_l1 dot_r0 dot_r1
    x0 x1 x2 x3 x4 _ _ _ _ _ _ _ p q

/-! ## Where each window's block sits: the index maps over the grid -/

/-- The row windows move with the point along the rows; the weights and the bias stay at block zero. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

section
-- the arrays as the launch finds them
variable (V : (c : Dev nD) → (b : Ref sig .tc) → Buf (Elt Ideal) ((c : Thread nD τ).loc b))

/-- The layer function of the arrays the launch is entered with. -/
def result (c : Dev nD) : FVec Ideal S45056x512 .f32 :=
  GcnLayer.linearRelu (V c main_v9 : FVec Ideal S45056x512 .f32) (V c main_v14 : FVec Ideal S45056x512 .f32)
    (fun r => (V c main_v17 : FVec Ideal S45056x1 .f32) (ix2 r (0 : Fin 1)))
    (fun i => (V c main_v15 : FVec Ideal S512x512 .bf16) i)
    (fun q => (V c main_v16 : FVec Ideal S1x512 .f32) (ix2 (0 : Fin 1) q))

/-- Entry `x` of the neighbour-sum block at point `t` is the array's entry in row `2048·t + x₀`, same lane. -/
theorem blk0_apply (c : Dev nD) (t : Fin cfg0.N) (x : S2048x512.Idx) (k : S45056x512.Idx)
    (hk0 : (k 0).val = t.val * 2048 + (x 0).val) (hk1 : (k 1).val = (x 1).val) :
    (iblk0 V c 0 t : FVec Ideal S2048x512 .f32) x = (V c main_v9 : FVec Ideal S45056x512 .f32) k := by
  obtain ⟨⟨h0, h1⟩, -⟩ := idx_facts t
  unfold iblk0
  rw [View.read_apply]
  show V c main_v9 _ = V c main_v9 _
  congr 1
  funext a
  apply Fin.ext
  match a with
  | ⟨0, _⟩ => show win0_0.index t 0 * 2048 + 1 * (x 0).val = (k 0).val; rw [h0, hk0]; omega
  | ⟨1, _⟩ => show win0_0.index t 1 * 512 + 1 * (x 1).val = (k 1).val; rw [h1, hk1]; omega

/-- The same for the block of the nodes' own rows. -/
theorem blk1_apply (c : Dev nD) (t : Fin cfg0.N) (x : S2048x512.Idx) (k : S45056x512.Idx)
    (hk0 : (k 0).val = t.val * 2048 + (x 0).val) (hk1 : (k 1).val = (x 1).val) :
    (iblk0 V c 1 t : FVec Ideal S2048x512 .f32) x = (V c main_v14 : FVec Ideal S45056x512 .f32) k := by
  obtain ⟨-, ⟨h0, h1⟩, -⟩ := idx_facts t
  unfold iblk0
  rw [View.read_apply]
  show V c main_v14 _ = V c main_v14 _
  congr 1
  funext a
  apply Fin.ext
  match a with
  | ⟨0, _⟩ => show win0_1.index t 0 * 2048 + 1 * (x 0).val = (k 0).val; rw [h0, hk0]; omega
  | ⟨1, _⟩ => show win0_1.index t 1 * 512 + 1 * (x 1).val = (k 1).val; rw [h1, hk1]; omega

/-- The same for the block of the degree column. -/
theorem blk2_apply (c : Dev nD) (t : Fin cfg0.N) (x : S2048x1.Idx) (k : S45056x1.Idx)
    (hk0 : (k 0).val = t.val * 2048 + (x 0).val) (hk1 : (k 1).val = (x 1).val) :
    (iblk0 V c 2 t : FVec Ideal S2048x1 .f32) x = (V c main_v17 : FVec Ideal S45056x1 .f32) k := by
  obtain ⟨-, -, ⟨h0, h1⟩, -⟩ := idx_facts t
  unfold iblk0
  rw [View.read_apply]
  show V c main_v17 _ = V c main_v17 _
  congr 1
  funext a
  apply Fin.ext
  match a with
  | ⟨0, _⟩ => show win0_2.index t 0 * 2048 + 1 * (x 0).val = (k 0).val; rw [h0, hk0]; omega
  | ⟨1, _⟩ => show win0_2.index t 1 * 1 + 1 * (x 1).val = (k 1).val; rw [h1, hk1]; omega

/-- The weight window's one block is the whole weight matrix. -/
theorem blk3_apply (c : Dev nD) (t : Fin cfg0.N) (x : S512x512.Idx) :
    (iblk0 V c 3 t : FVec Ideal S512x512 .bf16) x = (V c main_v15 : FVec Ideal S512x512 .bf16) x := by
  obtain ⟨-, -, -, ⟨h0, h1⟩, -⟩ := idx_facts t
  unfold iblk0
  rw [View.read_apply]
  show V c main_v15 _ = V c main_v15 _
  congr 1
  funext a
  apply Fin.ext
  match a with
  | ⟨0, _⟩ => show win0_3.index t 0 * 512 + 1 * (x 0).val = (x 0).val; rw [h0]; omega
  | ⟨1, _⟩ => show win0_3.index t 1 * 512 + 1 * (x 1).val = (x 1).val; rw [h1]; omega

/-- The bias window's one block is the whole bias row. -/
theorem blk4_apply (c : Dev nD) (t : Fin cfg0.N) (x : S1x512.Idx) :
    (iblk0 V c 4 t : FVec Ideal S1x512 .f32) x = (V c main_v16 : FVec Ideal S1x512 .f32) x := by
  obtain ⟨-, -, -, -, ⟨h0, h1⟩, -⟩ := idx_facts t
  unfold iblk0
  rw [View.read_apply]
  show V c main_v16 _ = V c main_v16 _
  congr 1
  funext a
  apply Fin.ext
  match a with
  | ⟨0, _⟩ => show win0_4.index t 0 * 1 + 1 * (x 0).val = (x 0).val; rw [h0]; omega
  | ⟨1, _⟩ => show win0_4.index t 1 * 512 + 1 * (x 1).val = (x 1).val; rw [h1]; omega

/-- What point `t` writes back is block `t` of the layer function of the whole arrays. -/
theorem flushed_eq (c : Dev nD) (t : Fin cfg0.N) :
    (dat0 V c).flushed 5 t = ((cfg0.win 5).blk t).view.read (Elt Ideal) (result V c) := by
  have hN : cfg0.N = 22 := N_0
  have ht : t.val < 22 := hN ▸ t.isLt
  obtain ⟨-, -, -, -, -, ⟨h50, h51⟩⟩ := idx_facts t
  show (cfg0.win 5).cut (grid0.coords t) ((dat0 V c).after 5 t) = _
  rw [after0_5]
  unfold out0_5
  rw [View.canon_unit_zero hz]
  simp only [View.ld_unit_zero (S := S2048x512) hz, View.ld_unit_zero (S := S2048x1) hz,
    View.ld_unit_zero (S := S512x512) hz, View.ld_unit_zero (S := S1x512) hz]
  funext y
  obtain ⟨p, q, rfl⟩ : ∃ (p : Fin 2048) (q : Fin 512), y = ix2 p q := ⟨y 0, y 1, eq_ix2 y⟩
  refine (stored_apply (iblk0 V c 0 t) (iblk0 V c 1 t) (iblk0 V c 2 t) (iblk0 V c 3 t) (iblk0 V c 4 t) p q).trans ?_
  rw [View.read_apply]
  -- the row of the array that entry `(p, q)` of block `t` sits in
  have hr : t.val * 2048 + p.val < 45056 := by have := p.isLt; omega
  have he : ((cfg0.win 5).blk t).view.emb (ix2 p q) = (ix2 (⟨t.val * 2048 + p.val, hr⟩ : Fin 45056) q : S45056x512.Idx) := by
    funext a
    apply Fin.ext
    match a with
    | ⟨0, _⟩ => show win0_5.index t 0 * 2048 + 1 * p.val = t.val * 2048 + p.val; rw [h50]; omega
    | ⟨1, _⟩ => show win0_5.index t 1 * 512 + 1 * q.val = q.val; rw [h51]; omega
  rw [he]
  show _ = max ((∑ j : Fin 512, GcnLayer.mean (V c main_v9 : FVec Ideal S45056x512 .f32) (V c main_v14 : FVec Ideal S45056x512 .f32)
      (fun r => (V c main_v17 : FVec Ideal S45056x1 .f32) (ix2 r (0 : Fin 1))) (⟨t.val * 2048 + p.val, hr⟩ : Fin 45056) j
        * (V c main_v15 : FVec Ideal S512x512 .bf16) (ix2 j q))
      + (V c main_v16 : FVec Ideal S1x512 .f32) (ix2 (0 : Fin 1) q)) (Ideal.ofBits .f32 0x00000000#32)
  rw [blk4_apply V c t (ix2 (0 : Fin 1) q),
    blk2_apply V c t (ix2 p (0 : Fin 1)) (ix2 (⟨t.val * 2048 + p.val, hr⟩ : Fin 45056) (0 : Fin 1)) rfl rfl]
  refine congrArg (fun s => max (s + _) _) (Finset.sum_congr rfl fun j _ => ?_)
  rw [blk0_apply V c t (ix2 p j) (ix2 (⟨t.val * 2048 + p.val, hr⟩ : Fin 45056) j) rfl rfl,
    blk1_apply V c t (ix2 p j) (ix2 (⟨t.val * 2048 + p.val, hr⟩ : Fin 45056) j) rfl rfl,
    blk3_apply V c t (ix2 j q)]
  rfl

/-- An index of the result array lies in point `t`'s block iff its row is one of the block's 2048. -/
theorem mem_blk (t : Fin cfg0.N) (i : S45056x512.Idx) :
    i ∈ ((cfg0.win 5).blk t).view.set ↔ ∀ a : Fin 2, win0_5.index t a * S2048x512.size a ≤ (i a).val
      ∧ (i a).val < win0_5.index t a * S2048x512.size a + S2048x512.size a := by
  show i ∈ ((View.whole main_v18).slice (win0_5.rect t)).set ↔ _
  rw [View.set_slice_whole, Rect.mem_set_unit]
  exact Iff.rfl

/-- Every index of the result array is in the block of the point its row falls in. -/
theorem cover (i : S45056x512.Idx) :
    ∃ t : Fin cfg0.N, (cfg0.win 5).flush t = true ∧ i ∈ ((cfg0.win 5).blk t).view.set := by
  have hN : cfg0.N = 22 := N_0
  have hi0 : (i 0).val < 45056 := (i 0).isLt
  have hi1 : (i 1).val < 512 := (i 1).isLt
  have htlt : (i 0).val / 2048 < cfg0.N := by rw [hN]; omega
  refine ⟨⟨(i 0).val / 2048, htlt⟩, flush0_5 _, ?_⟩
  obtain ⟨-, -, -, -, -, ⟨h50, h51⟩⟩ := idx_facts ⟨(i 0).val / 2048, htlt⟩
  rw [mem_blk]
  intro a
  match a with
  | ⟨0, _⟩ =>
    show win0_5.index ⟨(i 0).val / 2048, htlt⟩ (0 : Fin 2) * 2048 ≤ (i 0).val
      ∧ (i 0).val < win0_5.index ⟨(i 0).val / 2048, htlt⟩ (0 : Fin 2) * 2048 + 2048
    rw [h50]
    show (i 0).val / 2048 * 2048 ≤ (i 0).val ∧ (i 0).val < (i 0).val / 2048 * 2048 + 2048
    omega
  | ⟨1, _⟩ =>
    show win0_5.index ⟨(i 0).val / 2048, htlt⟩ (1 : Fin 2) * 512 ≤ (i 1).val
      ∧ (i 1).val < win0_5.index ⟨(i 0).val / 2048, htlt⟩ (1 : Fin 2) * 512 + 512
    rw [h51]
    omega

/-- After the launch the result array holds the layer function of the arrays the launch was entered with. -/
theorem final (c : Dev nD) : (dat0 V c).arrAt 5 cfg0.N = result V c :=
  (dat0 V c).arrAt_eq_of_cover 5 (result V c) (fun t _ => flushed_eq V c t) cover

end

end Cert.KernelIdeal.Launch0

end
-- ==== Proof.Launch1.lean ====
/-
  Launch 1 of the layer kernel (the second layer), read as one function of the arrays it is launched on.

  The grid has 4 points; point `t` stages rows `1024·t … 1024·t + 1023` of the neighbour sums, of the nodes' own rows and of the
  degree column, together with the whole weight matrix and bias row, and writes back the same rows of the result.  The
  body's value at entry `(p, q)` of its block depends only on row `p` of the three row blocks, so block `t` of the result is
  block `t` of the layer function of the whole arrays; the 4 blocks tile the 4096 rows, so the result array ends holding
  that function everywhere.
-/
import proofs.«150003_j43078521979009_1_alg».proof.Proof.Gen.KernelIdeal.Frame
import proofs.«150003_j43078521979009_1_alg».proof.Proof.LibGcnLayer
import Idealize.ShloMosaic.Lib.Pipeline.Value
import Idealize.ShloMosaic.Lib.ValueIdx

set_option maxRecDepth 16384

noncomputable section

namespace Cert.KernelIdeal.Launch1

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The matrix unit's dimension record contracts the left operand's lanes with the right operand's rows -/

theorem dot_l0 (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
theorem dot_l1 (i : S1024x256.Idx) (q : dot_S1024x512_S512x256_S1024x256_1_0_0_1_n_n.contr.Idx) : (dot_S1024x512_S512x256_S1024x256_1_0_0_1_n_n.lhsIdx i q 1).val = (q ⟨0, by decide⟩).val :=
  dot_S1024x512_S512x256_S1024x256_1_0_0_1_n_n.lhsIdx_val_of_single rfl i q
theorem dot_r0 (i : S1024x256.Idx) (q : dot_S1024x512_S512x256_S1024x256_1_0_0_1_n_n.contr.Idx) : (dot_S1024x512_S512x256_S1024x256_1_0_0_1_n_n.rhsIdx i q 0).val = (q ⟨0, by decide⟩).val :=
  dot_S1024x512_S512x256_S1024x256_1_0_0_1_n_n.rhsIdx_val_of_single rfl i q
theorem dot_r1 (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-! ## The body's stored value at an entry of its block -/

/-- Entry `(p, q)` of what the body stores, from the blocks it loaded: row `p` of the two feature blocks and of the
    degree column, column `q` of the weights, entry `q` of the bias row. -/
theorem stored_apply (x0 x1 : FVec Ideal S1024x512 .f32) (x2 : FVec Ideal S1024x1 .f32) (x3 : FVec Ideal S512x256 .bf16)
    (x4 : FVec Ideal S1x256 .f32) (p : Fin 1024) (q : Fin 256) :
    k1_pay1 (F := Ideal) x0 x1 x2 x3 x4 (ix2 p q)
      = (∑ j : Fin 512, Ideal.div (x0 (ix2 p j) + x1 (ix2 p j))
            (x2 (ix2 p (0 : Fin 1)) + Ideal.ofBits .f32 0x3F800000#32) * x3 (ix2 j q))
          + x4 (ix2 (0 : Fin 1) q) := by
  unfold k1_pay1
  exact GcnLayer.kernel_linear_apply dot_S1024x512_S512x256_S1024x256_1_0_0_1_n_n rfl rfl dot_l0 dot_l1 dot_r0 dot_r1
    x0 x1 x2 x3 x4 _ _ _ _ _ _ _ p q

/-! ## Where each window's block sits: the index maps over the grid -/

/-- The row windows move with the point along the rows; the weights and the bias stay at block zero. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

section
-- the arrays as the launch finds them
variable (V : (c : Dev nD) → (b : Ref sig .tc) → Buf (Elt Ideal) ((c : Thread nD τ).loc b))

/-- The layer function of the arrays the launch is entered with. -/
def result (c : Dev nD) : FVec Ideal S4096x256 .f32 :=
  GcnLayer.linear (V c main_v28 : FVec Ideal S4096x512 .f32) (V c main_v33 : FVec Ideal S4096x512 .f32)
    (fun r => (V c main_v36 : FVec Ideal S4096x1 .f32) (ix2 r (0 : Fin 1)))
    (fun i => (V c main_v34 : FVec Ideal S512x256 .bf16) i)
    (fun q => (V c main_v35 : FVec Ideal S1x256 .f32) (ix2 (0 : Fin 1) q))

/-- Entry `x` of the neighbour-sum block at point `t` is the array's entry in row `1024·t + x₀`, same lane. -/
theorem blk0_apply (c : Dev nD) (t : Fin cfg1.N) (x : S1024x512.Idx) (k : S4096x512.Idx)
    (hk0 : (k 0).val = t.val * 1024 + (x 0).val) (hk1 : (k 1).val = (x 1).val) :
    (iblk1 V c 0 t : FVec Ideal S1024x512 .f32) x = (V c main_v28 : FVec Ideal S4096x512 .f32) k := by
  obtain ⟨⟨h0, h1⟩, -⟩ := idx_facts t
  unfold iblk1
  rw [View.read_apply]
  show V c main_v28 _ = V c main_v28 _
  congr 1
  funext a
  apply Fin.ext
  match a with
  | ⟨0, _⟩ => show win1_0.index t 0 * 1024 + 1 * (x 0).val = (k 0).val; rw [h0, hk0]; omega
  | ⟨1, _⟩ => show win1_0.index t 1 * 512 + 1 * (x 1).val = (k 1).val; rw [h1, hk1]; omega

/-- The same for the block of the nodes' own rows. -/
theorem blk1_apply (c : Dev nD) (t : Fin cfg1.N) (x : S1024x512.Idx) (k : S4096x512.Idx)
    (hk0 : (k 0).val = t.val * 1024 + (x 0).val) (hk1 : (k 1).val = (x 1).val) :
    (iblk1 V c 1 t : FVec Ideal S1024x512 .f32) x = (V c main_v33 : FVec Ideal S4096x512 .f32) k := by
  obtain ⟨-, ⟨h0, h1⟩, -⟩ := idx_facts t
  unfold iblk1
  rw [View.read_apply]
  show V c main_v33 _ = V c main_v33 _
  congr 1
  funext a
  apply Fin.ext
  match a with
  | ⟨0, _⟩ => show win1_1.index t 0 * 1024 + 1 * (x 0).val = (k 0).val; rw [h0, hk0]; omega
  | ⟨1, _⟩ => show win1_1.index t 1 * 512 + 1 * (x 1).val = (k 1).val; rw [h1, hk1]; omega

/-- The same for the block of the degree column. -/
theorem blk2_apply (c : Dev nD) (t : Fin cfg1.N) (x : S1024x1.Idx) (k : S4096x1.Idx)
    (hk0 : (k 0).val = t.val * 1024 + (x 0).val) (hk1 : (k 1).val = (x 1).val) :
    (iblk1 V c 2 t : FVec Ideal S1024x1 .f32) x = (V c main_v36 : FVec Ideal S4096x1 .f32) k := by
  obtain ⟨-, -, ⟨h0, h1⟩, -⟩ := idx_facts t
  unfold iblk1
  rw [View.read_apply]
  show V c main_v36 _ = V c main_v36 _
  congr 1
  funext a
  apply Fin.ext
  match a with
  | ⟨0, _⟩ => show win1_2.index t 0 * 1024 + 1 * (x 0).val = (k 0).val; rw [h0, hk0]; omega
  | ⟨1, _⟩ => show win1_2.index t 1 * 1 + 1 * (x 1).val = (k 1).val; rw [h1, hk1]; omega

/-- The weight window's one block is the whole weight matrix. -/
theorem blk3_apply (c : Dev nD) (t : Fin cfg1.N) (x : S512x256.Idx) :
    (iblk1 V c 3 t : FVec Ideal S512x256 .bf16) x = (V c main_v34 : FVec Ideal S512x256 .bf16) x := by
  obtain ⟨-, -, -, ⟨h0, h1⟩, -⟩ := idx_facts t
  unfold iblk1
  rw [View.read_apply]
  show V c main_v34 _ = V c main_v34 _
  congr 1
  funext a
  apply Fin.ext
  match a with
  | ⟨0, _⟩ => show win1_3.index t 0 * 512 + 1 * (x 0).val = (x 0).val; rw [h0]; omega
  | ⟨1, _⟩ => show win1_3.index t 1 * 256 + 1 * (x 1).val = (x 1).val; rw [h1]; omega

/-- The bias window's one block is the whole bias row. -/
theorem blk4_apply (c : Dev nD) (t : Fin cfg1.N) (x : S1x256.Idx) :
    (iblk1 V c 4 t : FVec Ideal S1x256 .f32) x = (V c main_v35 : FVec Ideal S1x256 .f32) x := by
  obtain ⟨-, -, -, -, ⟨h0, h1⟩, -⟩ := idx_facts t
  unfold iblk1
  rw [View.read_apply]
  show V c main_v35 _ = V c main_v35 _
  congr 1
  funext a
  apply Fin.ext
  match a with
  | ⟨0, _⟩ => show win1_4.index t 0 * 1 + 1 * (x 0).val = (x 0).val; rw [h0]; omega
  | ⟨1, _⟩ => show win1_4.index t 1 * 256 + 1 * (x 1).val = (x 1).val; rw [h1]; omega

/-- What point `t` writes back is block `t` of the layer function of the whole arrays. -/
theorem flushed_eq (c : Dev nD) (t : Fin cfg1.N) :
    (dat1 V c).flushed 5 t = ((cfg1.win 5).blk t).view.read (Elt Ideal) (result V c) := by
  have hN : cfg1.N = 4 := N_1
  have ht : t.val < 4 := hN ▸ t.isLt
  obtain ⟨-, -, -, -, -, ⟨h50, h51⟩⟩ := idx_facts t
  show (cfg1.win 5).cut (grid1.coords t) ((dat1 V c).after 5 t) = _
  rw [after1_5]
  unfold out1_5
  rw [View.canon_unit_zero hz]
  simp only [View.ld_unit_zero (S := S1024x512) hz, View.ld_unit_zero (S := S1024x1) hz,
    View.ld_unit_zero (S := S512x256) hz, View.ld_unit_zero (S := S1x256) hz]
  funext y
  obtain ⟨p, q, rfl⟩ : ∃ (p : Fin 1024) (q : Fin 256), y = ix2 p q := ⟨y 0, y 1, eq_ix2 y⟩
  refine (stored_apply (iblk1 V c 0 t) (iblk1 V c 1 t) (iblk1 V c 2 t) (iblk1 V c 3 t) (iblk1 V c 4 t) p q).trans ?_
  rw [View.read_apply]
  -- the row of the array that entry `(p, q)` of block `t` sits in
  have hr : t.val * 1024 + p.val < 4096 := by have := p.isLt; omega
  have he : ((cfg1.win 5).blk t).view.emb (ix2 p q) = (ix2 (⟨t.val * 1024 + p.val, hr⟩ : Fin 4096) q : S4096x256.Idx) := by
    funext a
    apply Fin.ext
    match a with
    | ⟨0, _⟩ => show win1_5.index t 0 * 1024 + 1 * p.val = t.val * 1024 + p.val; rw [h50]; omega
    | ⟨1, _⟩ => show win1_5.index t 1 * 256 + 1 * q.val = q.val; rw [h51]; omega
  rw [he]
  show _ = ((∑ j : Fin 512, GcnLayer.mean (V c main_v28 : FVec Ideal S4096x512 .f32) (V c main_v33 : FVec Ideal S4096x512 .f32)
      (fun r => (V c main_v36 : FVec Ideal S4096x1 .f32) (ix2 r (0 : Fin 1))) (⟨t.val * 1024 + p.val, hr⟩ : Fin 4096) j
        * (V c main_v34 : FVec Ideal S512x256 .bf16) (ix2 j q))
      + (V c main_v35 : FVec Ideal S1x256 .f32) (ix2 (0 : Fin 1) q))
  rw [blk4_apply V c t (ix2 (0 : Fin 1) q),
    blk2_apply V c t (ix2 p (0 : Fin 1)) (ix2 (⟨t.val * 1024 + p.val, hr⟩ : Fin 4096) (0 : Fin 1)) rfl rfl]
  refine congrArg (fun s => s + _) (Finset.sum_congr rfl fun j _ => ?_)
  rw [blk0_apply V c t (ix2 p j) (ix2 (⟨t.val * 1024 + p.val, hr⟩ : Fin 4096) j) rfl rfl,
    blk1_apply V c t (ix2 p j) (ix2 (⟨t.val * 1024 + p.val, hr⟩ : Fin 4096) j) rfl rfl,
    blk3_apply V c t (ix2 j q)]
  rfl

/-- An index of the result array lies in point `t`'s block iff its row is one of the block's 1024. -/
theorem mem_blk (t : Fin cfg1.N) (i : S4096x256.Idx) :
    i ∈ ((cfg1.win 5).blk t).view.set ↔ ∀ a : Fin 2, win1_5.index t a * S1024x256.size a ≤ (i a).val
      ∧ (i a).val < win1_5.index t a * S1024x256.size a + S1024x256.size a := by
  show i ∈ ((View.whole main_v37).slice (win1_5.rect t)).set ↔ _
  rw [View.set_slice_whole, Rect.mem_set_unit]
  exact Iff.rfl

/-- Every index of the result array is in the block of the point its row falls in. -/
theorem cover (i : S4096x256.Idx) :
    ∃ t : Fin cfg1.N, (cfg1.win 5).flush t = true ∧ i ∈ ((cfg1.win 5).blk t).view.set := by
  have hN : cfg1.N = 4 := N_1
  have hi0 : (i 0).val < 4096 := (i 0).isLt
  have hi1 : (i 1).val < 256 := (i 1).isLt
  have htlt : (i 0).val / 1024 < cfg1.N := by rw [hN]; omega
  refine ⟨⟨(i 0).val / 1024, htlt⟩, flush1_5 _, ?_⟩
  obtain ⟨-, -, -, -, -, ⟨h50, h51⟩⟩ := idx_facts ⟨(i 0).val / 1024, htlt⟩
  rw [mem_blk]
  intro a
  match a with
  | ⟨0, _⟩ =>
    show win1_5.index ⟨(i 0).val / 1024, htlt⟩ (0 : Fin 2) * 1024 ≤ (i 0).val
      ∧ (i 0).val < win1_5.index ⟨(i 0).val / 1024, htlt⟩ (0 : Fin 2) * 1024 + 1024
    rw [h50]
    show (i 0).val / 1024 * 1024 ≤ (i 0).val ∧ (i 0).val < (i 0).val / 1024 * 1024 + 1024
    omega
  | ⟨1, _⟩ =>
    show win1_5.index ⟨(i 0).val / 1024, htlt⟩ (1 : Fin 2) * 256 ≤ (i 1).val
      ∧ (i 1).val < win1_5.index ⟨(i 0).val / 1024, htlt⟩ (1 : Fin 2) * 256 + 256
    rw [h51]
    omega

/-- After the launch the result array holds the layer function of the arrays the launch was entered with. -/
theorem final (c : Dev nD) : (dat1 V c).arrAt 5 cfg1.N = result V c :=
  (dat1 V c).arrAt_eq_of_cover 5 (result V c) (fun t _ => flushed_eq V c t) cover

end

end Cert.KernelIdeal.Launch1

end
-- ==== Proof.HostStretches.lean ====
/-
  The arrays each launch is entered with, computed from the program's arguments.

  Before the first launch the host forms the neighbour sums (gather the source rows, scatter-add them by destination),
  the in-degrees (scatter-add ones), takes the first 45056 feature rows, narrows the weights, and lays the bias as a row
  and the degrees as a column.  Between the launches it does the same with the first launch's result in place of the
  features.  The reference performs the very same gathers and scatter-adds, so each array is stated here as the
  reference's own staged function of the arguments: the two spellings are one term, and the gathers and scatter-adds
  are never opened.
-/
import proofs.«150003_j43078521979009_1_alg».proof.Proof.Gen.KernelIdeal.Frame
import proofs.«150003_j43078521979009_1_alg».proof.Proof.Gen.ReferenceIdeal.Read
import Idealize.ShloMosaic.Lib.StableHlo.Run

set_option maxRecDepth 16384

noncomputable section

namespace Cert.KernelIdeal.Stretch

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first launch -/

/-- The neighbour sums of the first hop. -/
theorem msg1_eq : (V1 m ρ c main_v9 : FVec Ideal S45056x512 .f32)
    = val_main_v10 (F := Ideal) (m ((c : Thread nD τ).loc main_arg0)) (m ((c : Thread nD τ).loc main_arg5)) (m ((c : Thread nD τ).loc main_arg6)) := by
  show StableHlo.after hostOps0 (W0 m ρ c) (Proc.devRef .tc main_v9) = _
  after_results
  rfl

/-- The destination nodes' own rows: the first 45056 feature rows. -/
theorem self1_eq : (V1 m ρ c main_v14 : FVec Ideal S45056x512 .f32) = val_main_v0 (F := Ideal) (m ((c : Thread nD τ).loc main_arg0)) := by
  show StableHlo.after hostOps0 (W0 m ρ c) (Proc.devRef .tc main_v14) = _
  after_results
  rfl

/-- The in-degrees of the first hop, laid as a column. -/
theorem deg1_eq : (V1 m ρ c main_v17 : FVec Ideal S45056x1 .f32)
    = shapeCast S45056x1 (val_main_v14 (F := Ideal) (m ((c : Thread nD τ).loc main_arg6))) shapeCasts_S45056_S45056x1 := by
  show StableHlo.after hostOps0 (W0 m ρ c) (Proc.devRef .tc main_v17) = _
  after_results
  rfl

/-- The first layer's weights, narrowed. -/
theorem w1_eq : (V1 m ρ c main_v15 : FVec Ideal S512x512 .bf16)
    = (truncf .bf16 ((m ((c : Thread nD τ).loc main_arg1)) : FVec Ideal S512x512 .f32) bitsLt_bf16_f32 : FVec Ideal S512x512 .bf16) := by
  show StableHlo.after hostOps0 (W0 m ρ c) (Proc.devRef .tc main_v15) = _
  after_results

/-- The first layer's bias, laid as a row. -/
theorem bias1_eq : (V1 m ρ c main_v16 : FVec Ideal S1x512 .f32)
    = shapeCast S1x512 ((m ((c : Thread nD τ).loc main_arg2)) : FVec Ideal S512 .f32) shapeCasts_S512_S1x512 := by
  show StableHlo.after hostOps0 (W0 m ρ c) (Proc.devRef .tc main_v16) = _
  after_results
  rfl

/-! ## Between the launches: the arguments are still as launched, the first result is what the first launch left -/

theorem W2_arg3 : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem W2_arg4 : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem W2_arg7 : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)
theorem W2_arg8 : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)

/-- The first launch's result array after the launch is what its write-backs leave. -/
theorem W2_hidden : W2 m ρ c (Proc.devRef .tc main_v18) = (dat0 (V1 m ρ) c).arrAt 5 cfg0.N :=
  W2_arr m ρ c 5

/-! ## Before the second launch, from the hidden features `h` -/

/-- The neighbour sums of the second hop: gather the hidden rows by source, scatter-add by destination. -/
theorem msg2_eq (h : FVec Ideal S45056x512 .f32) (hh : W2 m ρ c (Proc.devRef .tc main_v18) = h) :
    (V3 m ρ c main_v28 : FVec Ideal S4096x512 .f32)
      = Host.scatterAdd Cert.ReferenceIdeal.scatter_S4096x512_S40960x1_S40960x512_1_0_0_1 (val_main_v34 (F := Ideal))
          (val_main_v35 (F := Ideal) (m ((c : Thread nD τ).loc main_arg8)))
          (Host.gather Cert.ReferenceIdeal.gather_S45056x512_S40960x1_S40960x512_1_0_n_n_0_1_1512 h
            (val_main_v32 (F := Ideal) (m ((c : Thread nD τ).loc main_arg7)))) := by
  show StableHlo.after hostOps1 (W2 m ρ c) (Proc.devRef .tc main_v28) = _
  after_results
  rw [hh, W2_arg7, W2_arg8]
  rfl

/-- The second hop's destination nodes' own rows: the first 4096 hidden rows. -/
theorem self2_eq (h : FVec Ideal S45056x512 .f32) (hh : W2 m ρ c (Proc.devRef .tc main_v18) = h) :
    (V3 m ρ c main_v33 : FVec Ideal S4096x512 .f32)
      = extractStridedSlice S4096x512 ![0, 0] h slices_S45056x512_S4096x512_0_0 := by
  show StableHlo.after hostOps1 (W2 m ρ c) (Proc.devRef .tc main_v33) = _
  after_results
  rw [hh]

/-- The in-degrees of the second hop, laid as a column. -/
theorem deg2_eq : (V3 m ρ c main_v36 : FVec Ideal S4096x1 .f32)
    = shapeCast S4096x1 (val_main_v40 (F := Ideal) (m ((c : Thread nD τ).loc main_arg8))) shapeCasts_S4096_S4096x1 := by
  show StableHlo.after hostOps1 (W2 m ρ c) (Proc.devRef .tc main_v36) = _
  after_results
  rw [W2_arg8]
  rfl

/-- The second layer's weights, narrowed. -/
theorem w2_eq : (V3 m ρ c main_v34 : FVec Ideal S512x256 .bf16)
    = (truncf .bf16 ((m ((c : Thread nD τ).loc main_arg3)) : FVec Ideal S512x256 .f32) bitsLt_bf16_f32 : FVec Ideal S512x256 .bf16) := by
  show StableHlo.after hostOps1 (W2 m ρ c) (Proc.devRef .tc main_v34) = _
  after_results
  rw [W2_arg3]

/-- The second layer's bias, laid as a row. -/
theorem bias2_eq : (V3 m ρ c main_v35 : FVec Ideal S1x256 .f32)
    = shapeCast S1x256 ((m ((c : Thread nD τ).loc main_arg4)) : FVec Ideal S256 .f32) shapeCasts_S256_S1x256 := by
  show StableHlo.after hostOps1 (W2 m ρ c) (Proc.devRef .tc main_v35) = _
  after_results
  rw [W2_arg4]
  rfl

end Cert.KernelIdeal.Stretch

end
-- ==== Proof.RefLayers.lean ====
/-
  The reference, layer by layer.

  The reference's first layer is the rectified layer of `GcnLayer` applied to: the neighbour sums (a scatter-add, by
  destination, of the source rows gathered from the features), the first 45056 feature rows, and the in-degrees (a
  scatter-add of ones); its second layer is the unrectified layer applied to the same three quantities computed from
  the first layer's result.  The gathers and scatter-adds are carried as they stand: nothing here looks inside them.
-/
import proofs.«150003_j43078521979009_1_alg».proof.Proof.Gen.ReferenceIdeal.Read
import proofs.«150003_j43078521979009_1_alg».proof.Proof.LibGcnLayer

noncomputable section

namespace Cert.ReferenceIdeal.Layers

open Cert.ReferenceIdeal Cert.ReferenceIdeal.Gen Cert.ReferenceIdeal.Read
open Idealize.ShloMosaic Idealize.ShloMosaic.ValueIdx

/-- The hidden features: `max(mean · W1 + b1, 0)` over the 45056 destination rows of the first hop. -/
theorem hidden_eq (x0 : (⟨S495616x512, .f32⟩ : BufTy).Contents (Elt Ideal)) (x1 : (⟨S512x512, .f32⟩ : BufTy).Contents (Elt Ideal)) (x2 : (⟨S512, .f32⟩ : BufTy).Contents (Elt Ideal))
    (x5 x6 : (⟨S450560, .i32⟩ : BufTy).Contents (Elt Ideal)) :
    val_main_v25 (F := Ideal) x0 x1 x2 x5 x6
      = GcnLayer.linearRelu (val_main_v10 (F := Ideal) x0 x5 x6) (val_main_v0 (F := Ideal) x0)
          (fun r => val_main_v14 (F := Ideal) x6 (ix1 r)) x1 (fun q => x2 (ix1 q)) := by
  unfold val_main_v25 val_main_v24 val_main_v21 val_main_v20 val_main_v15 val_main_v19 val_main_v18 val_main_v16
    val_main_v17 val_main_cst_3 val_main_v23 val_main_v22 val_main_call0_v0 val_main_call0_cst
  generalize val_main_v10 (F := Ideal) x0 x5 x6 = msg
  generalize val_main_v0 (F := Ideal) x0 = self
  generalize val_main_v14 (F := Ideal) x6 = deg
  exact GcnLayer.host_linear_relu_eq dot_S45056x512_S512x512_S45056x512_1_0_0_1_n_n rfl rfl
    lhs_main_v21_0 lhs_main_v21_1 rhs_main_v21_0 rhs_main_v21_1 msg self deg x1 x2 _ _ _ _ _ _

/-- The output: `mean · W2 + b2` over the 4096 destination rows of the second hop, the mean taken of the hidden
    features. -/
theorem out_eq (x0 : (⟨S495616x512, .f32⟩ : BufTy).Contents (Elt Ideal)) (x1 : (⟨S512x512, .f32⟩ : BufTy).Contents (Elt Ideal)) (x2 : (⟨S512, .f32⟩ : BufTy).Contents (Elt Ideal))
    (x3 : (⟨S512x256, .f32⟩ : BufTy).Contents (Elt Ideal)) (x4 : (⟨S256, .f32⟩ : BufTy).Contents (Elt Ideal)) (x5 x6 : (⟨S450560, .i32⟩ : BufTy).Contents (Elt Ideal)) (x7 x8 : (⟨S40960, .i32⟩ : BufTy).Contents (Elt Ideal)) :
    val_main_v50 (F := Ideal) x0 x1 x2 x3 x4 x5 x6 x7 x8
      = GcnLayer.linear (val_main_v36 (F := Ideal) x0 x1 x2 x5 x6 x7 x8) (val_main_v26 (F := Ideal) x0 x1 x2 x5 x6)
          (fun r => val_main_v40 (F := Ideal) x8 (ix1 r)) x3 (fun q => x4 (ix1 q)) := by
  unfold val_main_v50 val_main_v47 val_main_v46 val_main_v41 val_main_v45 val_main_v44 val_main_v42 val_main_v43
    val_main_cst_9 val_main_v49 val_main_v48
  generalize val_main_v36 (F := Ideal) x0 x1 x2 x5 x6 x7 x8 = msg
  generalize val_main_v26 (F := Ideal) x0 x1 x2 x5 x6 = self
  generalize val_main_v40 (F := Ideal) x8 = deg
  exact GcnLayer.host_linear_eq dot_S4096x512_S512x256_S4096x256_1_0_0_1_n_n rfl rfl
    lhs_main_v47_0 lhs_main_v47_1 rhs_main_v47_0 rhs_main_v47_1 msg self deg x3 x4 _ _ _ _ _

end Cert.ReferenceIdeal.Layers

end
-- ==== Proof.Whole.lean ====
/-
  The idealized kernel program's result is the reference's function of the arguments.

  The first launch leaves the rectified layer of the first hop's neighbour sums, own rows and degrees — the
  reference's hidden features, since the arrays it was launched on are the reference's own staged functions of the
  arguments, the degree column and bias row read back through their casts and the narrowed weights read as the
  weights.  The second launch leaves the unrectified layer of the second hop's quantities, which the host formed from
  those hidden features exactly as the reference does.
-/
import proofs.«150003_j43078521979009_1_alg».proof.Proof.Launch0
import proofs.«150003_j43078521979009_1_alg».proof.Proof.Launch1
import proofs.«150003_j43078521979009_1_alg».proof.Proof.HostStretches
import proofs.«150003_j43078521979009_1_alg».proof.Proof.RefLayers

set_option maxRecDepth 16384

noncomputable section

namespace Cert.KernelIdeal.Whole

open Cert.KernelIdeal Cert.KernelIdeal.Gen Cert.ReferenceIdeal.Read
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- After the first launch its result array holds the reference's hidden features. -/
theorem hidden_eq : (W2 m ρ c (Proc.devRef .tc main_v18) : FVec Ideal S45056x512 .f32)
    = val_main_v25 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  rw [Stretch.W2_hidden, Launch0.final (V1 m ρ) c, Cert.ReferenceIdeal.Layers.hidden_eq]
  unfold Launch0.result
  refine GcnLayer.linearRelu_congr (Stretch.msg1_eq m ρ c) (Stretch.self1_eq m ρ c) (fun r => ?_) (fun i => ?_) (fun q => ?_)
  · rw [Stretch.deg1_eq m ρ c]
    exact Keepdims.shapeCast_a_a1_apply _ _ r 0
  · rw [Stretch.w1_eq m ρ c]
    rfl
  · rw [Stretch.bias1_eq m ρ c]
    exact RowBroadcast.shapeCast_flat_apply _ _ 0 q

/-- After the second launch the program's result array holds the reference's result. -/
theorem out_eq : (W4 m ρ c (Proc.devRef .tc main_v37) : FVec Ideal S4096x256 .f32)
    = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have hh := hidden_eq m ρ c
  rw [show W4 m ρ c (Proc.devRef .tc main_v37) = (dat1 (V3 m ρ) c).arrAt 5 cfg1.N from W4_arr m ρ c 5,
    Launch1.final (V3 m ρ) c, Cert.ReferenceIdeal.Layers.out_eq]
  unfold Launch1.result
  refine GcnLayer.linear_congr ?_ ?_ (fun r => ?_) (fun i => ?_) (fun q => ?_)
  · rw [Stretch.msg2_eq m ρ c _ hh]
    rfl
  · rw [Stretch.self2_eq m ρ c _ hh]
    rfl
  · rw [Stretch.deg2_eq m ρ c]
    exact Keepdims.shapeCast_a_a1_apply _ _ r 0
  · rw [Stretch.w2_eq m ρ c]
    rfl
  · rw [Stretch.bias2_eq m ρ c]
    exact RowBroadcast.shapeCast_flat_apply _ _ 0 q

end Cert.KernelIdeal.Whole

end
-- ==== Proof.lean ====
/-
  A two-layer graph network with the "mean over the neighbourhood and the node itself" aggregator: the kernel
  program against its reference, on the extended reals.

  Each layer takes, for every destination node, the sum of its in-neighbours' feature rows, the node's own row and its
  in-degree, and returns `((sum + own) / (degree + 1)) · W + b`; the first layer is followed by a maximum with zero.
  The neighbour sums and degrees are gathers and scatter-adds that both programs perform on the host in the same way.
  The kernel program runs the quotient, the product with `W`, the bias and the maximum in a kernel, a block of rows at
  a time, the quotient and the weights narrowed before the product — the identity on extended reals —, the degree
  as a column and the bias as a row; the reference runs them on the host on all rows at once.  Entry by entry both
  are the same sum over the 512 input features of the same products, with the same operations in the same order, so
  the two results are equal on all extended reals: the precondition that the inputs are finite is not used.

  The modules: `LibGcnLayer` states the layer as one function of whole arrays and reads both spellings as it;
  `Launch0` and `Launch1` show that each launch leaves that function of the arrays it is entered with (each grid point
  writes back its block of rows, and the blocks tile the rows); `HostStretches` computes those arrays from the
  arguments; `RefLayers` reads the reference's two layers; `Whole` joins them; `KernelRun` is the kernel program's run
  with its result buffer named.  The idealization changed nothing in the kernel program's text, so that claim is trivial.
-/
import proofs.«150003_j43078521979009_1_alg».proof.Defs
import proofs.«150003_j43078521979009_1_alg».proof.Proof.Gen.Kernel
import proofs.«150003_j43078521979009_1_alg».proof.Proof.Gen.Kernel.Skeleton
import proofs.«150003_j43078521979009_1_alg».proof.Proof.Gen.Kernel.Launch
import proofs.«150003_j43078521979009_1_alg».proof.Proof.Gen.Kernel.Points
import proofs.«150003_j43078521979009_1_alg».proof.Proof.Gen.Kernel.Frame
import proofs.«150003_j43078521979009_1_alg».proof.Proof.Gen.KernelIdeal
import proofs.«150003_j43078521979009_1_alg».proof.Proof.Gen.KernelIdeal.Skeleton
import proofs.«150003_j43078521979009_1_alg».proof.Proof.Gen.KernelIdeal.Launch
import proofs.«150003_j43078521979009_1_alg».proof.Proof.Gen.KernelIdeal.Points
import proofs.«150003_j43078521979009_1_alg».proof.Proof.Gen.KernelIdeal.Frame
import proofs.«150003_j43078521979009_1_alg».proof.Proof.Gen.ReferenceIdeal
import proofs.«150003_j43078521979009_1_alg».proof.Proof.Gen.Pre_finite_inputs
import proofs.«150003_j43078521979009_1_alg».proof.Proof.Gen.ReferenceIdeal.Read
import proofs.«150003_j43078521979009_1_alg».proof.Proof.KernelRun
import proofs.«150003_j43078521979009_1_alg».proof.Proof.Whole
import Idealize.ShloMosaic.Adequacy
import Idealize.ShloMosaic.Init

noncomputable section

namespace Cert.Proof

open Idealize.ShloMosaic Idealize.ShloMosaic.TcCoe Idealize.SL.Sem

/-- The kernel program as printed runs to the end without a fault and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel program. -/
theorem preserves : Cert.preserves_Kernel_KernelIdeal := trivial

/-- From memories that agree on the arguments both programs end with the same result array: the kernel program's
    result is what its second launch leaves, which is the reference's function of the arguments. -/
theorem algebraic : Cert.algebraic_KernelIdeal_ReferenceIdeal := by
  intro m ρ m' ρ' _ hagree
  refine ⟨fun c => Cert.KernelIdeal.Gen.W4 m ρ c (Proc.devRef .tc Cert.KernelIdeal.main_v37),
    Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v50_eq, e0, e1, e2, e3, e4, e5, e6, e7, e8]
  exact (Cert.KernelIdeal.Whole.out_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
